-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S64x128x256 : Shape := ⟨3, ![64, 128, 256]⟩
abbrev S64x256 : Shape := ⟨2, ![64, 256]⟩
abbrev S64x256x128 : Shape := ⟨3, ![64, 256, 128]⟩
abbrev S64x128 : Shape := ⟨2, ![64, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S64x128x256 : S_.BroadcastsInDim S64x128x256 (![] : Fin 0 → Fin S64x128x256.rank)
  reducesTo_S64x128x256_S_d0_1_2 : S64x128x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x128 : S_.BroadcastsInDim S64x256x128 (![] : Fin 0 → Fin S64x256x128.rank)
  reducesTo_S64x256x128_S_d0_1_2 : S64x256x128.ReducesTo [0, 1, 2] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg4 : FVec F S64x128 .f32) (main_v13 : IVec S_ 1) (main_v16 : IVec S64x256x128 1) : IVec S_ 1 :=
  let main_c_5 : IVec S_ 1 := constantI S_ 1 1#1
  let main_v17 : IVec S_ 1 := (fun x v => Host.reduce IntOp.andi x v reducesTo_S64x256x128_S_d0_1_2 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  main_v23

def fn {F : FTy → Type} [FloatOps F] (main_arg0 : FVec F S64x4096x128 .f32) (main_arg1 : FVec F S64x128x256 .f32) (main_arg2 : FVec F S64x256 .f32) (main_arg3 : FVec F S64x256x128 .f32) (main_arg4 : FVec F S64x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x128x256 .f32 := Host.absf main_arg1
  let main_cst_0 : FVec F S_ .f32 := constant S_ .f32 0x7F800000#32
  let main_v5 : FVec F S64x128x256 .f32 := broadcastInDim S64x128x256 ![] bcast_S_S64x128x256 main_cst_0
  let main_v6 : IVec S64x128x256 1 := cmpf .olt main_v4 main_v5
  let main_c_1 : IVec S_ 1 := constantI S_ 1 1#1
  let main_v7 : IVec S_ 1 := (fun x v => Host.reduce IntOp.andi x v reducesTo_S64x128x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256x128 .f32 := Host.absf main_arg3
  let main_cst_4 : FVec F S_ .f32 := constant S_ .f32 0x7F800000#32
  let main_v15 : FVec F S64x256x128 .f32 := broadcastInDim S64x256x128 ![] bcast_S_S64x256x128 main_cst_4
  let main_v16 : IVec S64x256x128 1 := cmpf .olt main_v14 main_v15
  fn_part1 (F := F) main_arg4 main_v13 main_v16
-- ==== Kernel.lean ====
abbrev S64x4096x128 : Shape := ⟨3, ![64, 4096, 128]⟩
abbrev S64x128x256 : Shape := ⟨3, ![64, 128, 256]⟩
abbrev S64x256 : Shape := ⟨2, ![64, 256]⟩
abbrev S64x256x128 : Shape := ⟨3, ![64, 256, 128]⟩
abbrev S64x128 : Shape := ⟨2, ![64, 128]⟩
abbrev S64x1x256 : Shape := ⟨3, ![64, 1, 256]⟩
abbrev S64x1x128 : Shape := ⟨3, ![64, 1, 128]⟩
abbrev S1x4096x128 : Shape := ⟨3, ![1, 4096, 128]⟩
abbrev S1x128x256 : Shape := ⟨3, ![1, 128, 256]⟩
abbrev S1x1x256 : Shape := ⟨3, ![1, 1, 256]⟩
abbrev S1x256x128 : Shape := ⟨3, ![1, 256, 128]⟩
abbrev S1x1x128 : Shape := ⟨3, ![1, 1, 128]⟩
abbrev S4096x128 : Shape := ⟨2, ![4096, 128]⟩
abbrev S128x256 : Shape := ⟨2, ![128, 256]⟩
abbrev S1x256 : Shape := ⟨2, ![1, 256]⟩
abbrev S256x128 : Shape := ⟨2, ![256, 128]⟩
abbrev S1x128 : Shape := ⟨2, ![1, 128]⟩
abbrev S4096x256 : Shape := ⟨2, ![4096, 256]⟩

abbrev nBuf : Space → Nat
  | .hbm => 8
  | .vmem => 12
  | .smem => 0
  | _ => 0

abbrev bufTy : (tb : Table) → Fin (tcTables nBuf tb) → BufTy
  | .hbm, ⟨0, _⟩ => ⟨S64x4096x128, .f32⟩
  | .hbm, ⟨1, _⟩ => ⟨S64x128x256, .f32⟩
  | .hbm, ⟨2, _⟩ => ⟨S64x256, .f32⟩
  | .hbm, ⟨3, _⟩ => ⟨S64x256x128, .f32⟩
  | .hbm, ⟨4, _⟩ => ⟨S64x128, .f32⟩
  | .hbm, ⟨5, _⟩ => ⟨S64x1x256, .f32⟩
  | .hbm, ⟨6, _⟩ => ⟨S64x1x128, .f32⟩
  | .hbm, ⟨7, _⟩ => ⟨S64x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x128x256, .f32⟩
  | .local _ .vmem, ⟨3, _⟩ => ⟨S1x128x256, .f32⟩
  | .local _ .vmem, ⟨4, _⟩ => ⟨S1x1x256, .f32⟩
  | .local _ .vmem, ⟨5, _⟩ => ⟨S1x1x256, .f32⟩
  | .local _ .vmem, ⟨6, _⟩ => ⟨S1x256x128, .f32⟩
  | .local _ .vmem, ⟨7, _⟩ => ⟨S1x256x128, .f32⟩
  | .local _ .vmem, ⟨8, _⟩ => ⟨S1x1x128, .f32⟩
  | .local _ .vmem, ⟨9, _⟩ => ⟨S1x1x128, .f32⟩
  | .local _ .vmem, ⟨10, _⟩ => ⟨S1x4096x128, .f32⟩
  | .local _ .vmem, ⟨11, _⟩ => ⟨S1x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256_S64x1x256 : S64x256.ShapeCasts S64x1x256
  shapeCasts_S64x128_S64x1x128 : S64x128.ShapeCasts S64x1x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x256_S4096x256 : S1x256.Broadcasts S4096x256
  broadcasts_S1x128_S4096x128 : S1x128.Broadcasts S4096x128
  shapeCasts_S4096x128_S1x4096x128 : S4096x128.ShapeCasts S1x4096x128
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S64x128x256.size a
  hwx0_1 : ∀ i : grid0.Coords, EltTy.bits .f32 = 32 ∨ (Rect.block (s := S64x128x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S64x1x256.size a
  hwx0_2 : ∀ i : grid0.Coords, EltTy.bits .f32 = 32 ∨ (Rect.block (s := S64x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S64x256x128.size a
  hwx0_3 : ∀ i : grid0.Coords, EltTy.bits .f32 = 32 ∨ (Rect.block (s := S64x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S64x1x128.size a
  hwx0_4 : ∀ i : grid0.Coords, EltTy.bits .f32 = 32 ∨ (Rect.block (s := S64x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S64x4096x128.size a
  hwx0_5 : ∀ i : grid0.Coords, EltTy.bits .f32 = 32 ∨ (Rect.block (s := S64x4096x128) S1x4096x128.size (cc0_transform_5 i) (hinb0_5 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S64x128x256 : Shape := ⟨3, ![64, 128, 256]⟩
abbrev S64x256 : Shape := ⟨2, ![64, 256]⟩
abbrev S64x256x128 : Shape := ⟨3, ![64, 256, 128]⟩
abbrev S64x128 : Shape := ⟨2, ![64, 128]⟩
abbrev S64x4096x256 : Shape := ⟨3, ![64, 4096, 256]⟩
abbrev S64x1x256 : Shape := ⟨3, ![64, 1, 256]⟩
abbrev S_ : Shape := ⟨0, ![]⟩
abbrev S64x1x128 : Shape := ⟨3, ![64, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x128x256, .f32⟩
  | .hbm, ⟨2, _⟩ => ⟨S64x256, .f32⟩
  | .hbm, ⟨3, _⟩ => ⟨S64x256x128, .f32⟩
  | .hbm, ⟨4, _⟩ => ⟨S64x128, .f32⟩
  | .hbm, ⟨5, _⟩ => ⟨S64x4096x256, .f32⟩
  | .hbm, ⟨6, _⟩ => ⟨S64x1x256, .f32⟩
  | .hbm, ⟨7, _⟩ => ⟨S64x4096x256, .f32⟩
  | .hbm, ⟨8, _⟩ => ⟨S64x4096x256, .f32⟩
  | .hbm, ⟨9, _⟩ => ⟨S64x4096x256, .f32⟩
  | .hbm, ⟨10, _⟩ => ⟨S64x4096x256, .f32⟩
  | .hbm, ⟨11, _⟩ => ⟨S_, .f32⟩
  | .hbm, ⟨12, _⟩ => ⟨S64x4096x256, .f32⟩
  | .hbm, ⟨13, _⟩ => ⟨S64x4096x256, .f32⟩
  | .hbm, ⟨14, _⟩ => ⟨S_, .f32⟩
  | .hbm, ⟨15, _⟩ => ⟨S64x4096x256, .f32⟩
  | .hbm, ⟨16, _⟩ => ⟨S64x4096x256, .f32⟩
  | .hbm, ⟨17, _⟩ => ⟨S64x4096x256, .f32⟩
  | .hbm, ⟨18, _⟩ => ⟨S64x4096x128, .f32⟩
  | .hbm, ⟨19, _⟩ => ⟨S64x1x128, .f32⟩
  | .hbm, ⟨20, _⟩ => ⟨S64x4096x128, .f32⟩
  | .hbm, ⟨21, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]

class Facts₀ : Prop where
  bcast_S64x256_S64x1x256_0_2 : S64x256.BroadcastsInDim S64x1x256 (![0, 2] : Fin 2 → Fin S64x1x256.rank)
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x128_S64x1x128_0_2 : S64x128.BroadcastsInDim S64x1x128 (![0, 2] : Fin 2 → Fin S64x1x128.rank)
  bcast_S64x1x128_S64x4096x128_0_1_2 : S64x1x128.BroadcastsInDim S64x4096x128 (![0, 1, 2] : Fin 3 → Fin S64x4096x128.rank)
  dot_S64x4096x128_S64x128x256_S64x4096x256_2_1_1_2_0_0_wf : DotDims.WF S64x4096x128 S64x128x256 S64x4096x256 [2] [1] [1] [2] [0] [0]
  dot_S64x4096x256_S64x256x128_S64x4096x128_2_1_1_2_0_0_wf : DotDims.WF S64x4096x256 S64x256x128 S64x4096x128 [2] [1] [1] [2] [0] [0]

variable [Facts₀]

def dot_S64x4096x128_S64x128x256_S64x4096x256_2_1_1_2_0_0 : DotDims S64x4096x128 S64x128x256 S64x4096x256 where
  lhsContracting := [2]
  rhsContracting := [1]
  lhsNonContracting := [1]
  rhsNonContracting := [2]
  lhsBatch := [0]
  rhsBatch := [0]
  wf := dot_S64x4096x128_S64x128x256_S64x4096x256_2_1_1_2_0_0_wf
def dot_S64x4096x256_S64x256x128_S64x4096x128_2_1_1_2_0_0 : DotDims S64x4096x256 S64x256x128 S64x4096x128 where
  lhsContracting := [2]
  rhsContracting := [1]
  lhsNonContracting := [1]
  rhsNonContracting := [2]
  lhsBatch := [0]
  rhsBatch := [0]
  wf := dot_S64x4096x256_S64x256x128_S64x4096x128_2_1_1_2_0_0_wf

class Facts : Prop extends Facts₀ where

variable [Facts]
-- ==== Proof.Mlp.lean ====
/-
  The function both programs compute: sixty-four independent two-layer networks, one per leading index.

  For instance `n`, row `t` of its input and output column `d`:
    z(n, t, h)   = (Σ_{k < 128} x(n, t, k) · W₁(n, k, h)) + b₁(n, h)            the hidden pre-activation, h < 256
    out(n, t, d) = (Σ_{h < 256} silu(z(n, t, h)) · W₂(n, h, d)) + b₂(n, d)
  with silu(z) = z · σ(z), σ(z) = 1 / (1 + e^(−z)) the logistic function, everything on the extended reals
  (σ(−∞) = 0, σ(+∞) = 1 by the conventions of the quotient and the exponential there).
-/
import Idealize.ShloMosaic.PureOps.Ideal
import Idealize.ShloMosaic.Lib.ValueIdx

noncomputable section

namespace Cert.Mlp

open Idealize.ShloMosaic Idealize.ShloMosaic.ValueIdx

/-- The activation: `z · σ(z)`. -/
def silu (z : EReal) : EReal := z * Ideal.logistic z

/-- The hidden pre-activation of instance `n` at row `t` and hidden unit `h`: the row of `x` against the column of
    `W₁`, plus the bias. -/
def hidden (x : FVec Ideal ⟨3, ![64, 4096, 128]⟩ .f32) (W1 : FVec Ideal ⟨3, ![64, 128, 256]⟩ .f32)
    (b1 : FVec Ideal ⟨2, ![64, 256]⟩ .f32) (n : Fin 64) (t : Fin 4096) (h : Fin 256) : EReal :=
  (∑ k : Fin 128, x (ix3 n t k) * W1 (ix3 n k h)) + b1 (ix2 n h)

/-- The output of instance `n` at row `t` and column `d`: the activated hidden row against the column of `W₂`,
    plus the bias. -/
def outAt (x : FVec Ideal ⟨3, ![64, 4096, 128]⟩ .f32) (W1 : FVec Ideal ⟨3, ![64, 128, 256]⟩ .f32)
    (b1 : FVec Ideal ⟨2, ![64, 256]⟩ .f32) (W2 : FVec Ideal ⟨3, ![64, 256, 128]⟩ .f32)
    (b2 : FVec Ideal ⟨2, ![64, 128]⟩ .f32) (n : Fin 64) (t : Fin 4096) (d : Fin 128) : EReal :=
  (∑ h : Fin 256, silu (hidden x W1 b1 n t h) * W2 (ix3 n h d)) + b2 (ix2 n d)

/-- The whole result array as one function of the five argument arrays. -/
def mlp (x : FVec Ideal ⟨3, ![64, 4096, 128]⟩ .f32) (W1 : FVec Ideal ⟨3, ![64, 128, 256]⟩ .f32)
    (b1 : FVec Ideal ⟨2, ![64, 256]⟩ .f32) (W2 : FVec Ideal ⟨3, ![64, 256, 128]⟩ .f32)
    (b2 : FVec Ideal ⟨2, ![64, 128]⟩ .f32) : FVec Ideal ⟨3, ![64, 4096, 128]⟩ .f32 :=
  fun i => outAt x W1 b1 W2 b2 (i 0) (i 1) (i 2)

theorem mlp_ix3 (x : FVec Ideal ⟨3, ![64, 4096, 128]⟩ .f32) (W1 : FVec Ideal ⟨3, ![64, 128, 256]⟩ .f32)
    (b1 : FVec Ideal ⟨2, ![64, 256]⟩ .f32) (W2 : FVec Ideal ⟨3, ![64, 256, 128]⟩ .f32)
    (b2 : FVec Ideal ⟨2, ![64, 128]⟩ .f32) (n : Fin 64) (t : Fin 4096) (d : Fin 128) :
    mlp x W1 b1 W2 b2 (ix3 n t d) = outAt x W1 b1 W2 b2 n t d := rfl

end Cert.Mlp

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«142036_j76124000354877_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibAffine.lean ====
/-
  An affine layer read at one entry, at the extended reals.

  For an `a × b` block `A`, a `b × c` matrix `W` and a one-row bias `β` (shape `1 × c`), the block
  `A · W + β` — the product accumulated from zero, the bias row repeated down the `a` rows — has at `(p, n)`
  the entry `(Σ_k A(p, k) · W(k, n)) + β(0, n)`: the zero the accumulator starts from adds nothing, and every
  row of the repeated bias is its one row.
-/
import Idealize.ShloMosaic.Lib.ValueIdx
import Idealize.ShloMosaic.Lib.ValueLayout
import Idealize.ShloMosaic.PureOps.Ideal.Laws
import proofs.«142036_j76124000354877_1_alg».proof.Proof.LibMatmulRows

noncomputable section

namespace Cert.LibAffine

open Idealize.ShloMosaic Idealize.ShloMosaic.ValueIdx

/-- THE AFFINE LAYER AT `(p, n)`: a product of an `a × b` block by a `b × c` matrix over their shared axis, into
    a zero accumulator, plus a `1 × c` bias row repeated down the rows, is the row-by-column sum plus the bias
    entry of that column. The six list hypotheses are `rfl` for a dimension record written with those fields. -/
theorem affine_apply {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (W : FVec Ideal ⟨2, ![b, c]⟩ φ₂) (β : FVec Ideal ⟨2, ![1, c]⟩ .f32)
    (hb : (⟨2, ![1, c]⟩ : Shape).Broadcasts ⟨2, ![a, c]⟩) (p : Fin a) (n : Fin c) :
    addf (matmul d none A W (constant ⟨2, ![a, c]⟩ .f32 0x00000000#32)) (broadcastTo ⟨2, ![a, c]⟩ β hb) (ix2 p n)
      = (∑ k : Fin b, A (ix2 p k) * W (ix2 k n)) + β (ix2 (0 : Fin 1) n) := by
  show FloatOps.matmul d none A W (constant ⟨2, ![a, c]⟩ .f32 0x00000000#32) (ix2 p n)
      + broadcastTo ⟨2, ![a, c]⟩ β hb (ix2 p n) = _
  rw [Cert.LibMatmulRows.matmul_rows_apply d hlc hrc hln hrn hlb hrb A W p n, broadcastTo_1b_ab_apply β hb p n]

end Cert.LibAffine

end
-- ==== Proof.KernelPay.lean ====
/-
  What the kernel's body stores, read entry by entry: one instance's two-layer network over its blocks.

  At a grid point the body holds one instance's blocks — `x` as `1 × 4096 × 128`, `W₁` as `1 × 128 × 256`, the
  bias `b₁` as `1 × 1 × 256`, `W₂` as `1 × 256 × 128`, `b₂` as `1 × 1 × 128` — drops the leading unit axis of
  each, multiplies, adds the bias row down the rows, activates, multiplies again, adds the second bias row and
  puts the unit axis back. The narrowing of the operands to sixteen bits before each product is the identity on
  the extended reals, so entry `(0, t, d)` of what it stores is
    `(Σ_h silu((Σ_k x(0,t,k)·W₁(0,k,h)) + b₁(0,0,h)) · W₂(0,h,d)) + b₂(0,0,d)`.
-/
import proofs.«142036_j76124000354877_1_alg».proof.Proof.Gen.KernelIdeal.Skeleton
import proofs.«142036_j76124000354877_1_alg».proof.Proof.Mlp
import proofs.«142036_j76124000354877_1_alg».proof.Proof.LibAffine
import Idealize.ShloMosaic.Lib.ValueLayout

noncomputable section

namespace Cert.KernelIdeal.PayValue

open Cert.KernelIdeal Cert.KernelIdeal.Gen
open Idealize.ShloMosaic Idealize.ShloMosaic.ValueIdx Cert.Mlp

variable (v0 : Vec Ideal S1x4096x128 .f32) (v3 : Vec Ideal S1x128x256 .f32) (v6 : Vec Ideal S1x1x256 .f32)
  (v8 : Vec Ideal S1x256x128 .f32) (v11 : Vec Ideal S1x1x128 .f32)

/-- One instance's hidden pre-activation from its blocks, at row `t` and hidden unit `h`. -/
def blockHidden (t : Fin 4096) (h : Fin 256) : EReal :=
  (∑ k : Fin 128, v0 (ix3 (0 : Fin 1) t k) * v3 (ix3 (0 : Fin 1) k h)) + v6 (ix3 (0 : Fin 1) (0 : Fin 1) h)

/-- One instance's output from its blocks, at row `t` and column `d`. -/
def blockOut (t : Fin 4096) (d : Fin 128) : EReal :=
  (∑ h : Fin 256, silu (blockHidden v0 v3 v6 t h) * v8 (ix3 (0 : Fin 1) h d)) + v11 (ix3 (0 : Fin 1) (0 : Fin 1) d)

/-- A product `w · σ(w)` at a value equal to `z` is `silu z`. -/
theorem silu_of_eq {w z : EReal} (e : w = z) : w * Ideal.logistic w = silu z := by rw [e]; rfl

/-- THE STORED BLOCK AT `(u, t, d)` is the instance's network at `(t, d)`. -/
theorem pay_apply (u : Fin 1) (t : Fin 4096) (d : Fin 128) :
    k0_pay1 (F := Ideal) v0 v3 v6 v8 v11 (ix3 u t d) = blockOut v0 v3 v6 v8 v11 t d := by
  unfold k0_pay1
  -- the unit axis put back, then the second affine layer
  refine (shapeCast_ab_1ab_apply _ _ u t d).trans ?_
  refine (Cert.LibAffine.affine_apply _ rfl rfl rfl rfl rfl rfl _ _ _ _ t d).trans ?_
  unfold blockOut
  refine congrArg₂ (· + ·) (Finset.sum_congr rfl fun h _ => congrArg₂ (· * ·) ?_ ?_) ?_
  · -- the activated hidden entry: the first affine layer, then `z · σ(z)`
    refine silu_of_eq ?_
    refine (Cert.LibAffine.affine_apply _ rfl rfl rfl rfl rfl rfl _ _ _ _ t h).trans ?_
    unfold blockHidden
    refine congrArg₂ (· + ·) (Finset.sum_congr rfl fun k _ => congrArg₂ (· * ·) ?_ ?_) ?_
    · exact shapeCast_1ab_ab_apply v0 _ t k
    · exact shapeCast_1ab_ab_apply v3 _ k h
    · exact shapeCast_1ab_ab_apply v6 _ (0 : Fin 1) h
  · exact shapeCast_1ab_ab_apply v8 _ h d
  · exact shapeCast_1ab_ab_apply v11 _ (0 : Fin 1) d

end Cert.KernelIdeal.PayValue

end
-- ==== Proof.LibMiddleAxis.lean ====
/-
  A unit axis in the middle, and the two ways a rank-3 broadcast fills around it, read at an index.

  A matrix `[a, c]` viewed as `[a, 1, c]` has, at `(p, u, q)`, the matrix entry `(p, q)`; repeated `b` times along
  the middle axis it has, at `(p, k, q)`, the entry `(p, q)` still. A column `[b, 1]` viewed as `[1, b, 1]` has, at
  `(u, k, u')`, the column's entry `k`; repeated along the first and last axes to `[a, b, c]` it has, at `(p, k, q)`,
  the entry `k`. Together: a table `f(p, q) ∘ g(k)` laid out with `k` on the middle axis. Last, the one element of a
  `[1, 1]` array taken out by position.
-/
import Idealize.ShloMosaic.Lib.ValueIdx
import Idealize.ShloMosaic.Lib.Pipeline.Value

namespace Cert.LibMiddleAxis

open Idealize.ShloMosaic Idealize.ShloMosaic.ValueIdx

variable {α : Type}

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- A `[b, 1]` column cast to `[1, b, 1]` reads, at `(u, k, u')`, the column's entry `k`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_three, Shape.rowMajor_val_two]
    show k.val * 1 + 0 = (u.val * b + k.val) * 1 + u'.val
    rw [hu, hu', Nat.zero_mul, Nat.zero_add])

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, 1]` array broadcast to `[a, b, c]` reads, at `(p, k, q)`, the operand at `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- The element of a `[1, 1]` array taken out at position (0, 0) is its entry `(0, 0)`. -/
theorem extractAt_11 (x : (⟨2, ![1, 1]⟩ : Shape).Idx → α)
    (h : ∀ d, (![0, 0] : Fin 2 → Nat) d < (⟨2, ![1, 1]⟩ : Shape).size d) :
    extractAt ![0, 0] x h = x (ix2 (0 : Fin 1) (0 : Fin 1)) := by
  unfold extractAt
  exact congrArg x (funext fun d => Fin.ext (by match d with | ⟨0, _⟩ => rfl | ⟨1, _⟩ => rfl))

end Cert.LibMiddleAxis
-- ==== Proof.ArrValue.lean ====
/-
  From what each grid point writes back to the whole result array.

  The grid has one point per instance. At point `t` every window's block is the slab of its array at leading
  index `t` — all 4096 rows and all columns of instance `t` for `x` and the result, the whole weight matrix of
  instance `t`, and the one bias row of instance `t` (the biases reach the region laid out `64 × 1 × 256` and
  `64 × 1 × 128`: a unit axis put in the middle, which moves no entry). So the block the body stores at point `t`
  is the network of `Mlp.lean` restricted to instance `t`, the sixty-four slabs tile the result array, and the
  array ends holding the network everywhere.
-/
import proofs.«142036_j76124000354877_1_alg».proof.Proof.Gen.KernelIdeal.Value
import proofs.«142036_j76124000354877_1_alg».proof.Proof.KernelPay
import proofs.«142036_j76124000354877_1_alg».proof.Proof.LibMiddleAxis
import Idealize.ShloMosaic.Lib.Pipeline.Value
import Idealize.ShloMosaic.Lib.StableHlo.Run

noncomputable section

namespace Cert.KernelIdeal.ArrValue

open Cert.KernelIdeal Cert.KernelIdeal.Gen Cert.KernelIdeal.PayValue
open Idealize.ShloMosaic Idealize.ShloMosaic.TcCoe Idealize.SL.Sem Idealize.ShloMosaic.ValueIdx Cert.Mlp
open Idealize.ShloMosaic.Pipeline (Dat)

/-! ## One instance's network from its blocks is the network of the arrays at that instance -/

/-- If the five blocks are the slabs of the five arrays at instance `n`, the instance's network computed from the
    blocks is the network of the arrays at `n`. -/
theorem blockOut_eq (v0 : Vec Ideal S1x4096x128 .f32) (v3 : Vec Ideal S1x128x256 .f32) (v6 : Vec Ideal S1x1x256 .f32)
    (v8 : Vec Ideal S1x256x128 .f32) (v11 : Vec Ideal S1x1x128 .f32)
    (X : FVec Ideal ⟨3, ![64, 4096, 128]⟩ .f32) (W1 : FVec Ideal ⟨3, ![64, 128, 256]⟩ .f32)
    (B1 : FVec Ideal ⟨2, ![64, 256]⟩ .f32) (W2 : FVec Ideal ⟨3, ![64, 256, 128]⟩ .f32)
    (B2 : FVec Ideal ⟨2, ![64, 128]⟩ .f32) (n : Fin 64)
    (h0 : ∀ (r : Fin 4096) (k : Fin 128), v0 (ix3 (0 : Fin 1) r k) = X (ix3 n r k))
    (h1 : ∀ (k : Fin 128) (h : Fin 256), v3 (ix3 (0 : Fin 1) k h) = W1 (ix3 n k h))
    (h2 : ∀ h : Fin 256, v6 (ix3 (0 : Fin 1) (0 : Fin 1) h) = B1 (ix2 n h))
    (h3 : ∀ (h : Fin 256) (d : Fin 128), v8 (ix3 (0 : Fin 1) h d) = W2 (ix3 n h d))
    (h4 : ∀ d : Fin 128, v11 (ix3 (0 : Fin 1) (0 : Fin 1) d) = B2 (ix2 n d)) (r : Fin 4096) (d : Fin 128) :
    blockOut v0 v3 v6 v8 v11 r d = outAt X W1 B1 W2 B2 n r d := by
  unfold blockOut blockHidden outAt Cert.Mlp.hidden
  simp only [h0, h1, h2, h3, h4]

/-- The stored block at a block index `y` is the network at the array index `i` whose leading coordinate is the
    instance and whose other two are `y`'s. -/
theorem pay_eq_mlp (v0 : Vec Ideal S1x4096x128 .f32) (v3 : Vec Ideal S1x128x256 .f32) (v6 : Vec Ideal S1x1x256 .f32)
    (v8 : Vec Ideal S1x256x128 .f32) (v11 : Vec Ideal S1x1x128 .f32)
    (X : FVec Ideal ⟨3, ![64, 4096, 128]⟩ .f32) (W1 : FVec Ideal ⟨3, ![64, 128, 256]⟩ .f32)
    (B1 : FVec Ideal ⟨2, ![64, 256]⟩ .f32) (W2 : FVec Ideal ⟨3, ![64, 256, 128]⟩ .f32)
    (B2 : FVec Ideal ⟨2, ![64, 128]⟩ .f32) (n : Fin 64)
    (h0 : ∀ (r : Fin 4096) (k : Fin 128), v0 (ix3 (0 : Fin 1) r k) = X (ix3 n r k))
    (h1 : ∀ (k : Fin 128) (h : Fin 256), v3 (ix3 (0 : Fin 1) k h) = W1 (ix3 n k h))
    (h2 : ∀ h : Fin 256, v6 (ix3 (0 : Fin 1) (0 : Fin 1) h) = B1 (ix2 n h))
    (h3 : ∀ (h : Fin 256) (d : Fin 128), v8 (ix3 (0 : Fin 1) h d) = W2 (ix3 n h d))
    (h4 : ∀ d : Fin 128, v11 (ix3 (0 : Fin 1) (0 : Fin 1) d) = B2 (ix2 n d))
    (y : S1x4096x128.Idx) (i : S64x4096x128.Idx)
    (hi0 : (i 0).val = n.val) (hi1 : (i 1).val = (y 1).val) (hi2 : (i 2).val = (y 2).val) :
    k0_pay1 (F := Ideal) v0 v3 v6 v8 v11 y = mlp X W1 B1 W2 B2 i := by
  obtain ⟨u, r, d, rfl⟩ : ∃ (u : Fin 1) (r : Fin 4096) (d : Fin 128), y = ix3 u r d := ⟨y 0, y 1, y 2, eq_ix3 y⟩
  have hi : i = ix3 n r d := funext fun a => Fin.ext (by
    match a with | ⟨0, _⟩ => exact hi0 | ⟨1, _⟩ => exact hi1 | ⟨2, _⟩ => exact hi2)
  rw [hi, pay_apply, mlp_ix3]
  exact blockOut_eq v0 v3 v6 v8 v11 X W1 B1 W2 B2 n h0 h1 h2 h3 h4 r d

variable (m : (ℓ : Loc nD τ sig) → Buf (Elt Ideal) ℓ) (ρ : Dev nD → PrngReg)

/-! ## The biases as the region finds them -/

/-- The first bias reaches the region as the argument with a unit axis put in the middle. -/
theorem V_bias1 (c : Dev nD) : (V m c main_v0 : S64x1x256.Idx → EReal)
    = shapeCast S64x1x256 (m ((c : Thread nD τ).loc main_arg2)) shapeCasts_S64x256_S64x1x256 := by
  dsimp only [Gen.V, Gen.hostOps0]; after_results; rfl

/-- The second bias likewise. -/
theorem V_bias2 (c : Dev nD) : (V m c main_v1 : S64x1x128.Idx → EReal)
    = shapeCast S64x1x128 (m ((c : Thread nD τ).loc main_arg4)) shapeCasts_S64x128_S64x1x128 := by
  dsimp only [Gen.V, Gen.hostOps0]; after_results; rfl

theorem V_bias1_apply (c : Dev nD) (n : Fin 64) (u : Fin 1) (h : Fin 256) :
    (V m c main_v0 : S64x1x256.Idx → EReal) (ix3 n u h) = m ((c : Thread nD τ).loc main_arg2) (ix2 n h) :=
  (congrFun (V_bias1 m c) _).trans (Cert.LibMiddleAxis.shapeCast_ac_a1c_apply _ _ n u h)

theorem V_bias2_apply (c : Dev nD) (n : Fin 64) (u : Fin 1) (d : Fin 128) :
    (V m c main_v1 : S64x1x128.Idx → EReal) (ix3 n u d) = m ((c : Thread nD τ).loc main_arg4) (ix2 n d) :=
  (congrFun (V_bias2 m c) _).trans (Cert.LibMiddleAxis.shapeCast_ac_a1c_apply _ _ n u d)

/-! ## The index maps over the grid -/

theorem hz : (![0, 0, 0] : Fin 3 → Nat) = fun _ => 0 := funext fun a => by fin_cases a <;> rfl

/-- Every window's block index at point `t` is `(t, 0, 0)`: decided over the sixty-four points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The instance a grid point works on. -/
def inst (t : Fin cfg0.N) : Fin 64 := ⟨t.val, lt_of_lt_of_eq t.isLt N_0⟩

/-! ## Each window's block at a point, read where the output's block says -/

theorem read0 (c : Dev nD) (t : Fin cfg0.N) (r : Fin 4096) (k : Fin 128) :
    iblk m c 0 t (ix3 (0 : Fin 1) r k) = m ((c : Thread nD τ).loc main_arg0) (ix3 (inst t) r k) := by
  obtain ⟨e0, e1, e2, -⟩ := idx_facts t
  show V m c main_arg0 (((cfg0.win 0).blk t).view.emb (ix3 (0 : Fin 1) r k)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * r.val = r.val; omega
  | ⟨2, _⟩ => show win0_0.index t (2 : Fin 3) * 128 + 1 * k.val = k.val; omega

theorem read1 (c : Dev nD) (t : Fin cfg0.N) (k : Fin 128) (h : Fin 256) :
    iblk m c 1 t (ix3 (0 : Fin 1) k h) = m ((c : Thread nD τ).loc main_arg1) (ix3 (inst t) k h) := by
  obtain ⟨-, -, -, e0, e1, e2, -⟩ := idx_facts t
  show V m c main_arg1 (((cfg0.win 1).blk t).view.emb (ix3 (0 : Fin 1) k h)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * k.val = k.val; omega
  | ⟨2, _⟩ => show win0_1.index t (2 : Fin 3) * 256 + 1 * h.val = h.val; omega

theorem read2 (c : Dev nD) (t : Fin cfg0.N) (h : Fin 256) :
    iblk m c 2 t (ix3 (0 : Fin 1) (0 : Fin 1) h) = m ((c : Thread nD τ).loc main_arg2) (ix2 (inst t) h) := by
  obtain ⟨-, -, -, -, -, -, e0, e1, e2, -⟩ := idx_facts t
  show (V m c main_v0 : S64x1x256.Idx → EReal) (((cfg0.win 2).blk t).view.emb (ix3 (0 : Fin 1) (0 : Fin 1) h)) = _
  refine Eq.trans (congrArg _ (funext fun a => Fin.ext ?_)) (V_bias1_apply m c (inst t) (0 : Fin 1) h)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 256 + 1 * h.val = h.val; omega

theorem read3 (c : Dev nD) (t : Fin cfg0.N) (h : Fin 256) (d : Fin 128) :
    iblk m c 3 t (ix3 (0 : Fin 1) h d) = m ((c : Thread nD τ).loc main_arg3) (ix3 (inst t) h d) := by
  obtain ⟨-, -, -, -, -, -, -, -, -, e0, e1, e2, -⟩ := idx_facts t
  show V m c main_arg3 (((cfg0.win 3).blk t).view.emb (ix3 (0 : Fin 1) h d)) = _
  rw [V_main_arg3]
  refine congrArg _ (funext fun a => Fin.ext ?_)
  match a with
  | ⟨0, _⟩ => show win0_3.index t (0 : Fin 3) * 1 + 1 * 0 = t.val; omega
  | ⟨1, _⟩ => show win0_3.index t (1 : Fin 3) * 256 + 1 * h.val = h.val; omega
  | ⟨2, _⟩ => show win0_3.index t (2 : Fin 3) * 128 + 1 * d.val = d.val; omega

theorem read4 (c : Dev nD) (t : Fin cfg0.N) (d : Fin 128) :
    iblk m c 4 t (ix3 (0 : Fin 1) (0 : Fin 1) d) = m ((c : Thread nD τ).loc main_arg4) (ix2 (inst t) d) := by
  obtain ⟨-, -, -, -, -, -, -, -, -, -, -, -, e0, e1, e2, -⟩ := idx_facts t
  show (V m c main_v1 : S64x1x128.Idx → EReal) (((cfg0.win 4).blk t).view.emb (ix3 (0 : Fin 1) (0 : Fin 1) d)) = _
  refine Eq.trans (congrArg _ (funext fun a => Fin.ext ?_)) (V_bias2_apply m c (inst t) (0 : Fin 1) d)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 128 + 1 * d.val = d.val; omega

/-! ## What a point writes back, the cover, and the array -/

/-- The network of the argument arrays as launched, on core `c`. -/
abbrev result (c : Dev nD) : FVec Ideal ⟨3, ![64, 4096, 128]⟩ .f32 :=
  mlp (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the network. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S1x4096x128) hz, View.ld_unit_zero (S := S1x128x256) hz,
    View.ld_unit_zero (S := S1x1x256) hz, View.ld_unit_zero (S := S1x256x128) hz, View.ld_unit_zero (S := S1x1x128) hz]
  obtain ⟨-, -, -, -, -, -, -, -, -, -, -, -, -, -, -, e0, e1, e2⟩ := idx_facts t
  funext y
  show k0_pay1 (F := Ideal) (iblk m c 0 t) (iblk m c 1 t) (iblk m c 2 t) (iblk m c 3 t) (iblk m c 4 t) y
      = result m c (((cfg0.win 5).blk t).view.emb y)
  refine pay_eq_mlp (iblk m c 0 t) (iblk m c 1 t) (iblk m c 2 t) (iblk m c 3 t) (iblk m c 4 t) _ _ _ _ _ (inst t)
    (read0 m c t) (read1 m c t) (read2 m c t) (read3 m c t) (read4 m c t) y _ ?_ ?_ ?_
  · show win0_5.index t (0 : Fin 3) * 1 + 1 * (y 0).val = t.val
    have hy : (y 0).val < 1 := (y 0).isLt
    omega
  · show win0_5.index t (1 : Fin 3) * 4096 + 1 * (y 1).val = (y 1).val; omega
  · show win0_5.index t (2 : Fin 3) * 128 + 1 * (y 2).val = (y 2).val; omega

/-- An index of the array is in point `t`'s block iff each coordinate is in the block's range on its axis. -/
theorem mem_blk (t : Fin cfg0.N) (i : S64x4096x128.Idx) :
    i ∈ ((cfg0.win 5).blk t).view.set ↔ ∀ a : Fin 3, win0_5.index t a * S1x4096x128.size a ≤ (i a).val
      ∧ (i a).val < win0_5.index t a * S1x4096x128.size a + S1x4096x128.size a := by
  show i ∈ ((View.whole main_v2).slice (win0_5.rect t)).set ↔ _
  rw [View.set_slice_whole, Rect.mem_set_unit]
  exact Iff.rfl

/-- The sixty-four slabs tile the array: index `i` lies in the block of the point its leading coordinate names. -/
theorem cover (i : S64x4096x128.Idx) :
    ∃ t : Fin cfg0.N, (cfg0.win 5).flush t = true ∧ i ∈ ((cfg0.win 5).blk t).view.set := by
  have hi0 : (i 0).val < 64 := (i 0).isLt
  have hi1 : (i 1).val < 4096 := (i 1).isLt
  have hi2 : (i 2).val < 128 := (i 2).isLt
  let t : Fin cfg0.N := ⟨(i 0).val, by rw [show cfg0.N = 64 from N_0]; exact hi0⟩
  obtain ⟨-, -, -, -, -, -, -, -, -, -, -, -, -, -, -, e0, e1, e2⟩ := idx_facts t
  have e0' : win0_5.index t (0 : Fin 3) = (i 0).val := e0
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 128 ≤ (i 2).val ∧ (i 2).val < win0_5.index t (2 : Fin 3) * 128 + 128; omega

/-- THE ARRAY after the run is the network of the argument arrays. -/
theorem final (c : Dev nD) : (dats m 0 c).arrAt 5 cfg0.N = result m c :=
  (dats m 0 c).arrAt_eq_of_cover 5 (result m c) (fun t _ => flushed_eq m c t) cover

/-! ## The run -/

/-- Every weakly fair execution of the kernel's program ends with the result array at the network of the arguments
    as launched, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.ArrValue

end
-- ==== Proof.RefMlp.lean ====
/-
  The reference, read entry by entry, is the two-layer network of `Mlp.lean`.

  Its first batched product contracts `x`'s last axis with `W₁`'s middle axis within each instance, so entry
  `(n, t, h)` is `Σ_k x(n, t, k) · W₁(n, k, h)`; the bias `b₁` enters through two broadcasts that put a unit
  axis in the middle and then repeat it along the rows, so it adds `b₁(n, h)`. The activation is spelt
  `z · (1 / (1 + e^(−z)))`, which is `z · σ(z)` once the literal 1.0 is read as the real number one. The
  second product and bias repeat the pattern with `W₂` and `b₂`.
-/
import proofs.«142036_j76124000354877_1_alg».proof.Proof.Gen.ReferenceIdeal.Read
import proofs.«142036_j76124000354877_1_alg».proof.Proof.Mlp
import Idealize.ShloMosaic.PureOps.IdealRules

noncomputable section

namespace Cert.ReferenceIdeal.RefValue

open Cert.ReferenceIdeal Cert.ReferenceIdeal.Gen Cert.ReferenceIdeal.Read
open Idealize.ShloMosaic Idealize.ShloMosaic.ValueIdx Cert.Mlp

/-- The single-precision word of 1.0 denotes the real number one. -/
theorem one_f32 : Ideal.ofBits .f32 0x3F800000#32 = 1 := IdealRules.sign_bit.ideal_onePat .f32

variable (x0 : (⟨S64x4096x128, .f32⟩ : BufTy).Contents (Elt Ideal)) (x1 : (⟨S64x128x256, .f32⟩ : BufTy).Contents (Elt Ideal))
  (x2 : (⟨S64x256, .f32⟩ : BufTy).Contents (Elt Ideal)) (x3 : (⟨S64x256x128, .f32⟩ : BufTy).Contents (Elt Ideal))
  (x4 : (⟨S64x128, .f32⟩ : BufTy).Contents (Elt Ideal))

/-- The pre-activation stage at `(n, t, h)`: the row of `x` against the column of `W₁`, plus `b₁(n, h)`. -/
theorem preact_apply (n : Fin 64) (t : Fin 4096) (h : Fin 256) :
    val_main_v3 (F := Ideal) x0 x1 x2 (ix3 n t h) = hidden x0 x1 x2 n t h := by
  rw [val_main_v3_apply, val_main_v0_apply, val_main_v2_apply, val_main_v1_apply]
  have el : ∀ k : Fin 128, lidx_main_v0 (ix3 n t h) k = ix3 n t k := fun k => funext fun a => by
    match a with | ⟨0, _⟩ => rfl | ⟨1, _⟩ => rfl | ⟨2, _⟩ => rfl
  have er : ∀ k : Fin 128, ridx_main_v0 (ix3 n t h) k = ix3 n k h := fun k => funext fun a => by
    match a with | ⟨0, _⟩ => rfl | ⟨1, _⟩ => rfl | ⟨2, _⟩ => rfl
  have eb : idx_main_v1 (idx_main_v2 (ix3 n t h)) = ix2 n h := funext fun a => by
    match a with | ⟨0, _⟩ => rfl | ⟨1, _⟩ => rfl
  simp only [el, er, eb]
  rfl

/-- The activated stage at `(n, t, h)`: `z · (1 / (1 + e^(−z)))` at the pre-activation `z`, which is `silu z`. -/
theorem act_apply (n : Fin 64) (t : Fin 4096) (h : Fin 256) :
    val_main_v4 (F := Ideal) x0 x1 x2 (ix3 n t h) = silu (hidden x0 x1 x2 n t h) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, preact_apply]
  simp only [Ideal.mulf_def, Ideal.hostDivf_def, Ideal.addf_def, Ideal.hostUnary_exp_def, Ideal.hostNegf_def,
    Ideal.negf_def, Ideal.ofBits_def, one_f32]
  rfl

/-- THE REFERENCE'S RESULT IS THE NETWORK: the last stage, as a function of the five arguments, is `mlp`. -/
theorem ref_eq : val_main_v8 (F := Ideal) x0 x1 x2 x3 x4 = mlp x0 x1 x2 x3 x4 := by
  funext i
  obtain ⟨n, t, d, rfl⟩ : ∃ (n : Fin 64) (t : Fin 4096) (d : Fin 128), i = ix3 n t d := ⟨i 0, i 1, i 2, eq_ix3 i⟩
  rw [mlp_ix3, val_main_v8_apply, val_main_v5_apply, val_main_v7_apply, val_main_v6_apply]
  have el : ∀ k : Fin 256, lidx_main_v5 (ix3 n t d) k = ix3 n t k := fun k => funext fun a => by
    match a with | ⟨0, _⟩ => rfl | ⟨1, _⟩ => rfl | ⟨2, _⟩ => rfl
  have er : ∀ k : Fin 256, ridx_main_v5 (ix3 n t d) k = ix3 n k d := fun k => funext fun a => by
    match a with | ⟨0, _⟩ => rfl | ⟨1, _⟩ => rfl | ⟨2, _⟩ => rfl
  have eb : idx_main_v6 (idx_main_v7 (ix3 n t d)) = ix2 n d := funext fun a => by
    match a with | ⟨0, _⟩ => rfl | ⟨1, _⟩ => rfl
  simp only [el, er, eb, act_apply]
  rfl

end Cert.ReferenceIdeal.RefValue

end
-- ==== Proof.lean ====
/-
  Sixty-four independent two-layer networks: the kernel against its reference, on the extended reals.

  Both programs compute, for instance `n`, row `t` and output column `d`,
    out(n, t, d) = (Σ_{h < 256} silu(z(n, t, h)) · W₂(n, h, d)) + b₂(n, d),
    z(n, t, h)   = (Σ_{k < 128} x(n, t, k) · W₁(n, k, h)) + b₁(n, h),     silu(z) = z · 1 / (1 + e^(−z)).
  The kernel runs one grid point per instance: it holds that instance's slabs of the five arrays, narrows the
  operands of each product to sixteen bits (the identity on the extended reals), accumulates each product from
  zero, adds the bias row down the rows and applies the logistic function as one operation. The reference contracts
  the two products in one batched operation each, brings the biases in through broadcasts, and spells the logistic
  function as a quotient. Entry by entry the two are the same sums of the same terms: no law beyond reading each
  operation at an index joins them, so the inputs' finiteness is never used. The kernel's idealization rewrote
  nothing, so that it preserves the kernel is trivially so.
  The kernel's frame and its value block by block, and the reference's run stage by stage, are the generated
  modules imported below; `Mlp.lean` states the function, `RefMlp.lean` reads the reference as it, `KernelPay.lean`
  reads the body's stored block as one instance of it, `ArrValue.lean` carries the blocks to the whole array.
-/
import proofs.«142036_j76124000354877_1_alg».proof.Defs
import proofs.«142036_j76124000354877_1_alg».proof.Proof.Gen.Kernel
import proofs.«142036_j76124000354877_1_alg».proof.Proof.Gen.Kernel.Skeleton
import proofs.«142036_j76124000354877_1_alg».proof.Proof.Gen.Kernel.Launch
import proofs.«142036_j76124000354877_1_alg».proof.Proof.Gen.Kernel.Points
import proofs.«142036_j76124000354877_1_alg».proof.Proof.Gen.Kernel.Frame
import proofs.«142036_j76124000354877_1_alg».proof.Proof.Gen.KernelIdeal
import proofs.«142036_j76124000354877_1_alg».proof.Proof.Gen.KernelIdeal.Skeleton
import proofs.«142036_j76124000354877_1_alg».proof.Proof.Gen.KernelIdeal.Launch
import proofs.«142036_j76124000354877_1_alg».proof.Proof.Gen.KernelIdeal.Points
import proofs.«142036_j76124000354877_1_alg».proof.Proof.Gen.KernelIdeal.Frame
import proofs.«142036_j76124000354877_1_alg».proof.Proof.Gen.ReferenceIdeal
import proofs.«142036_j76124000354877_1_alg».proof.Proof.Gen.Pre_finite_inputs
import proofs.«142036_j76124000354877_1_alg».proof.Proof.Gen.KernelIdeal.Value
import proofs.«142036_j76124000354877_1_alg».proof.Proof.Gen.ReferenceIdeal.Run
import proofs.«142036_j76124000354877_1_alg».proof.Proof.Gen.ReferenceIdeal.Read
import proofs.«142036_j76124000354877_1_alg».proof.Proof.ArrValue
import proofs.«142036_j76124000354877_1_alg».proof.Proof.RefMlp
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at the network of its arguments
    (`ArrValue.run`) and the reference's at its last stage, which is the network of its own (`RefMlp.ref_eq`): the
    same array. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
